-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x512 : Shape := ⟨3, ![64, 4096, 512]⟩
abbrev S_ : Shape := ⟨0, ![]⟩
abbrev S64x4096 : Shape := ⟨2, ![64, 4096]⟩

class Facts : Prop where
  bcast_S_S64x4096x512 : S_.BroadcastsInDim S64x4096x512 (![] : Fin 0 → Fin S64x4096x512.rank)
  reducesTo_S64x4096x512_S_d0_1_2 : S64x4096x512.ReducesTo [0, 1, 2] S_
  h_S_ : 0 < S_.numel
  reducesTo_S64x4096x512_S64x4096_d2 : S64x4096x512.ReducesTo [2] S64x4096
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S64x4096x512 .f32) : IVec S_ 1 :=
  let main_v0 : FVec F S64x4096x512 .f32 := Host.absf main_arg0
  let main_cst : FVec F S_ .f32 := constant S_ .f32 0x7F800000#32
  let main_v1 : FVec F S64x4096x512 .f32 := broadcastInDim S64x4096x512 ![] bcast_S_S64x4096x512 main_cst
  let main_v2 : IVec S64x4096x512 1 := cmpf .olt main_v0 main_v1
  let main_c : IVec S_ 1 := constantI S_ 1 1#1
  let main_v3 : IVec S_ 1 := (fun x v => Host.reduce IntOp.andi x v reducesTo_S64x4096x512_S_d0_1_2 h_S_) main_v2 main_c
  let main_v4 : FVec F S64x4096x512 .f32 := mulf main_arg0 main_arg0
  let main_cst_0 : FVec F S_ .f32 := constant S_ .f32 0x00000000#32
  let main_v5 : FVec F S64x4096 .f32 := (fun x v => Host.reduceAdd x v reducesTo_S64x4096x512_S64x4096_d2 h_S_) main_v4 main_cst_0
  let main_cst_1 : FVec F S_ .f32 := constant S_ .f32 0x00000000#32
  let main_v6 : FVec F S64x4096 .f32 := broadcastInDim S64x4096 ![] bcast_S_S64x4096 main_cst_1
  let main_v7 : IVec S64x4096 1 := cmpf .ogt main_v5 main_v6
  let main_c_2 : IVec S_ 1 := constantI S_ 1 1#1
  let main_v8 : IVec S_ 1 := (fun x v => Host.reduce IntOp.andi x v reducesTo_S64x4096_S_d0_1 h_S_) main_v7 main_c_2
  let main_v9 : IVec S_ 1 := andi main_v3 main_v8
  main_v9
-- ==== Kernel.lean ====
abbrev S64x4096x512 : Shape := ⟨3, ![64, 4096, 512]⟩
abbrev S262144x512 : Shape := ⟨2, ![262144, 512]⟩
abbrev S4096x512 : Shape := ⟨2, ![4096, 512]⟩
abbrev S4096 : Shape := ⟨1, ![4096]⟩
abbrev S4096x1 : Shape := ⟨2, ![4096, 1]⟩

abbrev nBuf : Space → Nat
  | .hbm => 4
  | .vmem => 4
  | .smem => 0
  | _ => 0

abbrev bufTy : (tb : Table) → Fin (tcTables nBuf tb) → BufTy
  | .hbm, ⟨0, _⟩ => ⟨S64x4096x512, .f32⟩
  | .hbm, ⟨1, _⟩ => ⟨S262144x512, .f32⟩
  | .hbm, ⟨2, _⟩ => ⟨S262144x512, .f32⟩
  | .hbm, ⟨3, _⟩ => ⟨S64x4096x512, .f32⟩
  | .local _ .vmem, ⟨0, _⟩ => ⟨S4096x512, .f32⟩
  | .local _ .vmem, ⟨1, _⟩ => ⟨S4096x512, .f32⟩
  | .local _ .vmem, ⟨2, _⟩ => ⟨S4096x512, .f32⟩
  | .local _ .vmem, ⟨3, _⟩ => ⟨S4096x512, .f32⟩
  | _, _ => ⟨S64x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x4096x512_S262144x512 : S64x4096x512.ShapeCasts S262144x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  reduces_S4096x512_S4096 : S4096x512.Reduces [1] S4096
  shapeCasts_S4096_S4096x1 : S4096.ShapeCasts S4096x1
  broadcasts_S4096x1_S4096x512 : S4096x1.Broadcasts S4096x512
  shapeCasts_S262144x512_S64x4096x512 : S262144x512.ShapeCasts S64x4096x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S262144x512.size a
  hwx0_0 : ∀ i : grid0.Coords, EltTy.bits .f32 = 32 ∨ (Rect.block (s := S262144x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S262144x512.size a
  hwx0_1 : ∀ i : grid0.Coords, EltTy.bits .f32 = 32 ∨ (Rect.block (s := S262144x512) S4096x512.size (cc0_transform_1 i) (hinb0_1 i)).WholeWords (EltTy.packing .f32)

variable [Facts₀]

abbrev win0_0 : Pipeline.Window sig grid0 :=
  Pipeline.Window.ofSpec (Memref.whole main_v0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x4096x512 : Shape := ⟨3, ![64, 4096, 512]⟩
abbrev S_ : Shape := ⟨0, ![]⟩
abbrev S64x4096 : Shape := ⟨2, ![64, 4096]⟩
abbrev S64x4096x1 : Shape := ⟨3, ![64, 4096, 1]⟩

abbrev nBuf : Space → Nat
  | .hbm => 8
  | .vmem => 0
  | .smem => 0
  | _ => 0

abbrev bufTy : (tb : Table) → Fin (tcTables nBuf tb) → BufTy
  | .hbm, ⟨0, _⟩ => ⟨S64x4096x512, .f32⟩
  | .hbm, ⟨1, _⟩ => ⟨S64x4096x512, .f32⟩
  | .hbm, ⟨2, _⟩ => ⟨S_, .f32⟩
  | .hbm, ⟨3, _⟩ => ⟨S64x4096, .f32⟩
  | .hbm, ⟨4, _⟩ => ⟨S64x4096x1, .f32⟩
  | .hbm, ⟨5, _⟩ => ⟨S64x4096x1, .f32⟩
  | .hbm, ⟨6, _⟩ => ⟨S64x4096x512, .f32⟩
  | .hbm, ⟨7, _⟩ => ⟨S64x4096x512, .f32⟩
  | _, _ => ⟨S64x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  reducesTo_S64x4096x512_S64x4096_d2 : S64x4096x512.ReducesTo [2] S64x4096
  h_S_ : 0 < S_.numel
  bcast_S64x4096_S64x4096x1_0_1 : S64x4096.BroadcastsInDim S64x4096x1 (![0, 1] : Fin 2 → Fin S64x4096x1.rank)
  bcast_S64x4096x1_S64x4096x512_0_1_2 : S64x4096x1.BroadcastsInDim S64x4096x512 (![0, 1, 2] : Fin 3 → Fin S64x4096x512.rank)

variable [Facts₀]

class Facts : Prop extends Facts₀ where

variable [Facts]
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.BlockBody.lean ====
/-
  What the kernel body stores, read at an index of its block.

  The body loads a block `x` of 4096 feature vectors (4096 rows of 512 entries), squares it entry by entry, sums
  each row, re-lays the 4096 sums as a column, takes the reciprocal square root of each, repeats the column along
  the rows and multiplies the block by it. So the entry stored at row `p`, column `q` is

      x (p, q) · (∑ k, x (p, k) · x (p, k)) ^ (-1/2),

  the entry times the reciprocal square root of the squared length of ITS OWN row: no other row enters.
-/
import proofs.«136942_g59219009077998_feedfinal_496_9_alg».proof.Proof.Gen.KernelIdeal.Skeleton
import proofs.«136942_g59219009077998_feedfinal_496_9_alg».proof.Proof.LibKeepdims

noncomputable section

namespace Cert.KernelIdeal.BlockBody

open Cert.KernelIdeal Cert.KernelIdeal.Gen Idealize.ShloMosaic Idealize.ShloMosaic.ValueIdx

/-- The stored block at `(p, q)`: the loaded block's entry there times the reciprocal square root of the sum of
    the squares of row `p`. -/
theorem pay_apply (x0 : Vec Ideal S4096x512 .f32) (p : Fin 4096) (q : Fin 512) :
    k0_pay1 (F := Ideal) x0 (ix2 p q)
      = x0 (ix2 p q) * Ideal.rsqrt (∑ k : Fin 512, x0 (ix2 p k) * x0 (ix2 p k)) := by
  unfold k0_pay1
  rw [shapeCast_self]
  show x0 (ix2 p q) * _ = _
  refine congrArg (x0 (ix2 p q) * ·) ?_
  refine (Cert.LibKeepdims.broadcastTo_a1_ab_apply _ _ p q).trans ?_
  show Ideal.rsqrt _ = _
  refine congrArg Ideal.rsqrt ?_
  refine (Cert.LibKeepdims.shapeCast_a_a1_apply _ _ p (0 : Fin 1)).trans ?_
  exact Cert.LibKeepdims.multiReduction_add_row _ _ _ _ _ p

end Cert.KernelIdeal.BlockBody

end
-- ==== Proof.RowNorm.lean ====
/-
  Scaling every feature vector of an array f32[64, 4096, 512] to unit Euclidean length, written twice as a
  function of the array on the extended reals, and the law that joins the two writings.

  Fix an index `i = (b, t, f)`. The feature vector through `i` has the 512 entries `x (b, t, k)`, and its
  squared length is `s = 0 + ∑ k, x (b, t, k) · x (b, t, k)`. One program divides the entry by the length,
  `x i / √s`; the other multiplies it by the reciprocal square root, `x i · s^(-1/2)`.

  For `0 < s` these agree on ALL extended reals, whatever `x i` is: for a positive real `s` both are the
  product of `x i` with the real `(√s)⁻¹`; for `s = +∞` the quotient is `x i · (+∞)⁻¹ = x i · 0` and the
  reciprocal square root of `+∞` is `0`, so both are `0`. At `s = 0` they differ (the quotient `0 / 0` against
  the product `0 · (+∞)`), which is why the law carries the hypothesis `0 < s`: the vector is not the zero vector.
  No finiteness of the entries is needed.
-/
import Idealize.ShloMosaic.PureOps.Ideal
import Idealize.ShloMosaic.Lib.ValueIdx

noncomputable section

namespace Cert.RowNorm

open Idealize.ShloMosaic

/-- The array's shape: 64 batches of 4096 frames of 512 features. -/
abbrev S3 : Shape := ⟨3, ![64, 4096, 512]⟩

/-- Entry `k` of the feature vector through the index `i`: the same batch and frame, feature `k`. -/
abbrev inRow (i : S3.Idx) (k : Fin 512) : S3.Idx := ValueIdx.ix3 (i 0) (i 1) k

/-- The squared length of the feature vector through `i`: zero plus the sum of the squares of its 512 entries. -/
def sumSq (x : S3.Idx → EReal) (i : S3.Idx) : EReal :=
  Ideal.ofBits .f32 0x00000000#32 + ∑ k : Fin 512, x (inRow i k) * x (inRow i k)

/-- The entry divided by the length of its feature vector. -/
def quot (x : S3.Idx → EReal) (i : S3.Idx) : EReal := Ideal.div (x i) (Ideal.sqrt (sumSq x i))

/-- The entry times the reciprocal square root of the squared length of its feature vector. -/
def scaled (x : S3.Idx → EReal) (i : S3.Idx) : EReal := x i * Ideal.rsqrt (sumSq x i)

/-- For a positive extended real `s` — a positive real or `+∞` — multiplying by its reciprocal square root is
    dividing by its square root, for every extended real `x`. -/
theorem mul_rsqrt_eq_div_sqrt (x s : EReal) (hs : 0 < s) : x * Ideal.rsqrt s = Ideal.div x (Ideal.sqrt s) := by
  induction s using EReal.rec with
  | bot => exact absurd hs (by simp)
  | top => rw [Ideal.rsqrt_top, Ideal.sqrt_top, Ideal.div, if_neg EReal.top_ne_zero, EReal.inv_top]
  | coe r =>
    have hr : 0 < r := by exact_mod_cast hs
    have hq : Real.sqrt r ≠ 0 := (Real.sqrt_pos.2 hr).ne'
    rw [Ideal.rsqrt_coe, Ideal.sqrt_coe, if_neg (not_lt.2 hr.le), if_neg hr.ne', if_neg (not_lt.2 hr.le),
      Ideal.div, if_neg (by exact_mod_cast hq), EReal.coe_inv]

/-- Where the feature vector through `i` has positive squared length, the two writings agree at `i`. -/
theorem scaled_eq_quot (x : S3.Idx → EReal) (i : S3.Idx) (h : 0 < sumSq x i) : scaled x i = quot x i :=
  mul_rsqrt_eq_div_sqrt (x i) (sumSq x i) h

end Cert.RowNorm

end
-- ==== Proof.KernelArray.lean ====
/-
  The kernel's result array, as one function of its argument array.

  The program re-lays the argument f32[64, 4096, 512] as a matrix of 262144 rows of 512 entries (row
  `b · 4096 + t` is the feature vector of batch `b`, frame `t`), cuts the matrix into 64 blocks of 4096 whole
  rows, lets the body rewrite block `t` at grid point `t`, and re-lays the matrix it wrote as f32[64, 4096, 512].

  Block `t` of the output is rows `4096 t … 4096 t + 4095`, the same rows the input block `t` holds, and the body
  scales every row by the reciprocal square root of that row's own squared length (BlockBody). A row never
  straddles two blocks, so the matrix written is "every row scaled by its own length" whatever the block size; the
  64 blocks cover the 262144 rows (row `r` lies in block `r / 4096`).
-/
import proofs.«136942_g59219009077998_feedfinal_496_9_alg».proof.Proof.Gen.KernelIdeal.Frame
import proofs.«136942_g59219009077998_feedfinal_496_9_alg».proof.Proof.BlockBody
import proofs.«136942_g59219009077998_feedfinal_496_9_alg».proof.Proof.RowNorm
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Rows

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- Every row of a 262144 × 512 matrix scaled by the reciprocal square root of its own squared length. -/
def scaledRows (A : S262144x512.Idx → EReal) : S262144x512.Idx → EReal := fun j =>
  A j * Ideal.rsqrt (∑ k : Fin 512, A (ix2 (⟨(j 0).val, idx2_lt0 j⟩ : Fin 262144) k) * A (ix2 (⟨(j 0).val, idx2_lt0 j⟩ : Fin 262144) k))

/-- At an index written by its coordinates: the entry times the reciprocal square root of the squared length of row `r`. -/
theorem scaledRows_ix2 (A : S262144x512.Idx → EReal) (r : Fin 262144) (q : Fin 512) :
    scaledRows A (ix2 r q) = A (ix2 r q) * Ideal.rsqrt (∑ k : Fin 512, A (ix2 r k) * A (ix2 r k)) := rfl

/-- The printed index maps, decided over the grid: the input block and the output block at point `t` are the same
    block of rows, block `t`, and both span all 512 columns. -/
theorem idx_facts : ∀ t : Fin cfg0.N, win0_0.index t (0 : Fin 2) = win0_1.index t (0 : Fin 2)
    ∧ win0_0.index t (1 : Fin 2) = win0_1.index t (1 : Fin 2)
    ∧ win0_1.index t (1 : Fin 2) = 0
    ∧ win0_1.index t (0 : Fin 2) ≤ 63 :=
  (by decide +kernel : ∀ t : Fin grid0.N, _)

/-- Every block of rows is some point's. -/
theorem idx_onto : ∀ q0 : Fin 64, ∃ t : Fin cfg0.N, win0_1.index t = ![q0.val, 0] :=
  (by decide +kernel : ∀ q0 : Fin 64, ∃ t : Fin grid0.N, win0_1.index t = ![q0.val, 0])

/-- What point `t` writes back is block `t` of the matrix of scaled rows of the matrix the region finds. -/
theorem flushed_eq (c : Dev nD) (t : Fin cfg0.N) :
    (dats m 0 c).flushed 1 t = ((cfg0.win 1).blk t).view.read (Elt Ideal) (scaledRows (V m c main_v0)) := by
  show (cfg0.win 1).cut (grid0.coords t) ((dats m 0 c).after 1 t) = _
  rw [after0_1]
  unfold out0_1
  rw [View.canon_unit_zero hz]
  simp only [View.ld_unit_zero (S := S4096x512) hz]
  obtain ⟨e0, e1, e2, e3⟩ := idx_facts t
  funext j
  obtain ⟨p, q, rfl⟩ : ∃ (p : Fin 4096) (q : Fin 512), j = ix2 p q := ⟨j 0, j 1, eq_ix2 j⟩
  have hp : p.val < 4096 := p.isLt
  -- row `p` of block `t` is row `R = 4096 t + p` of the matrix, in the input's block and in the output's alike
  obtain ⟨R, hR⟩ : ∃ R : Fin 262144, R.val = win0_1.index t (0 : Fin 2) * 4096 + p.val := ⟨⟨_, by omega⟩, rfl⟩
  have hout : ((cfg0.win 1).blk t).view.emb (ix2 p q) = (ix2 R q : S262144x512.Idx) := by
    funext a; apply Fin.ext
    match a with
    | ⟨0, _⟩ => show win0_1.index t (0 : Fin 2) * 4096 + 1 * p.val = R.val; omega
    | ⟨1, _⟩ => show win0_1.index t (1 : Fin 2) * 512 + 1 * q.val = q.val; omega
  have hin : ∀ q' : Fin 512, ((cfg0.win 0).blk t).view.emb (ix2 p q') = (ix2 R q' : S262144x512.Idx) := by
    intro q'; funext a; apply Fin.ext
    match a with
    | ⟨0, _⟩ => show win0_0.index t (0 : Fin 2) * 4096 + 1 * p.val = R.val; omega
    | ⟨1, _⟩ => show win0_0.index t (1 : Fin 2) * 512 + 1 * q'.val = q'.val; omega
  show k0_pay1 (F := Ideal) (iblk m c 0 t) (ix2 p q) = scaledRows (V m c main_v0) (((cfg0.win 1).blk t).view.emb (ix2 p q))
  rw [hout, scaledRows_ix2]
  refine (Cert.KernelIdeal.BlockBody.pay_apply _ p q).trans ?_
  -- the input block at `(p, q')` is the matrix at `(R, q')`
  have hblk : ∀ q' : Fin 512, iblk m c 0 t (ix2 p q') = (V m c main_v0 : S262144x512.Idx → EReal) (ix2 R q') :=
    fun q' => congrArg (V m c main_v0 : S262144x512.Idx → EReal) (hin q')
  simp only [hblk]

/-- An index of the matrix is in point `t`'s block iff each coordinate is in the block's range on its axis. -/
theorem mem_blk (t : Fin cfg0.N) (i : S262144x512.Idx) :
    i ∈ ((cfg0.win 1).blk t).view.set ↔ ∀ a : Fin 2, win0_1.index t a * S4096x512.size a ≤ (i a).val ∧ (i a).val < win0_1.index t a * S4096x512.size a + S4096x512.size a := by
  show i ∈ ((View.whole main_v1).slice (win0_1.rect t)).set ↔ _
  rw [View.set_slice_whole, Rect.mem_set_unit]
  exact Iff.rfl

/-- The 64 blocks cover the matrix: row `r` lies in block `r / 4096`, and every block spans all the columns. -/
theorem cover (i : S262144x512.Idx) :
    ∃ t : Fin cfg0.N, (cfg0.win 1).flush t = true ∧ i ∈ ((cfg0.win 1).blk t).view.set := by
  have hi0 : (i 0).val < 262144 := (i 0).isLt
  have hi1 : (i 1).val < 512 := (i 1).isLt
  obtain ⟨t, ht⟩ := idx_onto ⟨(i 0).val / 4096, by omega⟩
  have q0 : win0_1.index t (0 : Fin 2) = (i 0).val / 4096 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 4096 ≤ (i 0).val ∧ (i 0).val < win0_1.index t (0 : Fin 2) * 4096 + 4096; omega
  | ⟨1, _⟩ => show win0_1.index t (1 : Fin 2) * 512 ≤ (i 1).val ∧ (i 1).val < win0_1.index t (1 : Fin 2) * 512 + 512; omega

/-- The matrix after the run: every row of the matrix the region found, scaled by its own length. -/
theorem final (c : Dev nD) : (dats m 0 c).arrAt 1 cfg0.N = scaledRows (V m c main_v0) :=
  (dats m 0 c).arrAt_eq_of_cover 1 (scaledRows (V m c main_v0)) (fun t _ => flushed_eq m c t) cover

/-- The matrix the region finds is the argument array re-laid row-major. -/
theorem found (c : Dev nD) :
    (V m c main_v0 : S262144x512.Idx → EReal)
      = shapeCast S262144x512 (m ((c : Thread nD τ).loc main_arg0)) shapeCasts_S64x4096x512_S262144x512 := by
  show StableHlo.after hostOps0 (fun b => m (c, b)) (Proc.devRef .tc main_v0) = _
  after_results
  rfl

/-- The program's result: the matrix after the run re-laid as [64, 4096, 512]. The operation after the region reads
    the matrix the region wrote, which is the matrix of scaled rows. -/
theorem tail (c : Dev nD) :
    (Pipeline.afterTail₀ cfgs (dats m) 0 (V0 m) [hostOps1] c main_v2 : S64x4096x512.Idx → EReal)
      = shapeCast S64x4096x512 (scaledRows (V m c main_v0)) shapeCasts_S262144x512_S64x4096x512 := by
  unfold Pipeline.afterTail₀
  show StableHlo.after hostOps1 _ (Proc.devRef .tc main_v2) = _
  after_results
  -- the buffer the operation reads is the output window's array, which ends at the matrix of scaled rows
  have e : Pipeline.withArrays (cfgs 0).spec c (V0 m c) (fun w => (dats m 0 c).arrAt w (cfgs 0).N) (Proc.devRef .tc main_v1)
      = scaledRows (V m c main_v0) :=
    (Pipeline.withArrays_arr spec0 launch0.win.arr_inj c _ _ 1).trans (final m c)
  rw [e]
  rfl

/-- Re-lay [64, 4096, 512] as the matrix, scale the matrix's rows, re-lay back: at `(b, t, f)` this is the entry
    there times the reciprocal square root of the squared length of the feature vector `(b, t, ·)`. Row-major
    positions: `(b, t, f)` sits at `(b · 4096 + t) · 512 + f`, which is position `(R, f)` of the matrix for
    `R = b · 4096 + t`; so matrix row `R` is exactly the feature vector of batch `b`, frame `t`. -/
theorem relaid_apply (x : S64x4096x512.Idx → EReal) (hin : S64x4096x512.ShapeCasts S262144x512)
    (hout : S262144x512.ShapeCasts S64x4096x512) (b : Fin 64) (t : Fin 4096) (f : Fin 512) :
    shapeCast S64x4096x512 (scaledRows (shapeCast S262144x512 x hin)) hout (ix3 b t f)
      = x (ix3 b t f) * Ideal.rsqrt (∑ k : Fin 512, x (ix3 b t k) * x (ix3 b t k)) := by
  have hb : b.val < 64 := b.isLt
  have ht : t.val < 4096 := t.isLt
  obtain ⟨R, hR⟩ : ∃ R : Fin 262144, R.val = b.val * 4096 + t.val := ⟨⟨_, by omega⟩, rfl⟩
  have hrd : ∀ k : Fin 512, shapeCast S262144x512 x hin (ix2 R k) = x (ix3 b t k) := fun k =>
    shapeCast_apply x hin (ix2 R k) (ix3 b t k) (by
      rw [Shape.rowMajor_val_three, Shape.rowMajor_val_two]
      show (b.val * 4096 + t.val) * 512 + k.val = R.val * 512 + k.val
      omega)
  refine (shapeCast_apply (scaledRows (shapeCast S262144x512 x hin)) hout (ix3 b t f) (ix2 R f) (by
      rw [Shape.rowMajor_val_three, Shape.rowMajor_val_two]
      show R.val * 512 + f.val = (b.val * 4096 + t.val) * 512 + f.val
      omega)).trans ?_
  rw [scaledRows_ix2]
  simp only [hrd]

/-- The program's result as a function of its argument array. -/
def result (x : S64x4096x512.Idx → EReal) : S64x4096x512.Idx → EReal :=
  shapeCast S64x4096x512 (scaledRows (shapeCast S262144x512 x shapeCasts_S64x4096x512_S262144x512))
    shapeCasts_S262144x512_S64x4096x512

/-- It is "every entry times the reciprocal square root of the squared length of its feature vector"; the sum the
    body takes starts from nothing, the specification's from the constant zero, which is the real number zero. -/
theorem result_eq_scaled (x : S64x4096x512.Idx → EReal) : result x = Cert.RowNorm.scaled x := by
  funext i
  obtain ⟨b, t, f, rfl⟩ : ∃ (b : Fin 64) (t : Fin 4096) (f : Fin 512), i = ix3 b t f := ⟨i 0, i 1, i 2, eq_ix3 i⟩
  unfold result Cert.RowNorm.scaled Cert.RowNorm.sumSq
  rw [Ideal.ofBits_zero_f32, zero_add]
  exact relaid_apply x _ _ b t f

/-- The run, read: every weakly fair execution ends with the result array at the scaled array of the argument and
    the argument unchanged. -/
theorem run : θ_run defs (onTc (τ := τ) (main (F := Ideal))) ⟨m, fun _ => 0, ρ⟩ fun r => ∀ c : Dev nD,
      r.2.mem ((c.tc : Thread nD τ).loc main_v2) = Cert.RowNorm.scaled (m ((c.tc : Thread nD τ).loc main_arg0))
      ∧ r.2.mem ((c.tc : Thread nD τ).loc main_arg0) = m ((c.tc : Thread nD τ).loc main_arg0) :=
  (θ_run defs _ _).mono (fun r h c =>
    ⟨(((h c).2 main_v2 (Pipeline.mem_restRefs_of main_v2 (by decide) (by decide))).trans (tail m c)).trans
        ((congrArg (fun A => shapeCast S64x4096x512 (scaledRows A) shapeCasts_S262144x512_S64x4096x512) (found m c)).trans
          (result_eq_scaled _)),
      ((h c).2 main_arg0 (Pipeline.mem_restRefs_of main_arg0 (by decide) (by decide))).trans (W_main_arg0 m (dats m) c)⟩)
    (run_main m ρ)

end Cert.KernelIdeal.Rows

end
-- ==== Proof.PreRows.lean ====
/-
  What the hypothesis on the input array says about each feature vector.

  The hypothesis is a conjunction of two statements about an array `x` of shape [64, 4096, 512], each an "and"
  over a whole index set: every entry has absolute value below `+∞`, and, for every batch `b` and frame `t`, the
  number `0 + ∑ k, x (b, t, k) · x (b, t, k)` is greater than `0`. Only the second conjunct is used here. An "and"
  over an index set that comes out true was true at every index, in particular at `(b, t) = (i 0, i 1)` for a given
  index `i = (b, t, f)` of the array; the comparison there is the strict order of the extended reals, the constant it
  compares against is the real number zero, and the sum over the last axis at `(b, t)` is the sum over the 512
  entries of the feature vector through `i`. So the squared length of the feature vector through `i` is positive:
  that vector is not the zero vector.
-/
import proofs.«136942_g59219009077998_feedfinal_496_9_alg».proof.Pre_finite_inputs
import proofs.«136942_g59219009077998_feedfinal_496_9_alg».proof.Proof.RowNorm
import Idealize.ShloMosaic.Lib.ReduceAll
import Idealize.ShloMosaic.PureOps.Ideal.Laws
import Idealize.ShloMosaic.Lib.ValueIdx

noncomputable section

namespace Cert.PreRows

open Idealize.ShloMosaic Cert.Pre_finite_inputs

/-- The shape with no axes has exactly one index. -/
instance : Subsingleton S_.Idx := ⟨fun a b => funext fun d => d.elim0⟩

/-- Summing the squares over the last axis, starting from the constant zero: at batch `j 0` and frame `j 1` the
    result is zero plus the sum over the 512 features `k` of `x (j 0, j 1, k) · x (j 0, j 1, k)`. -/
theorem rowSum_apply [Facts] (x : FVec Ideal S64x4096x512 .f32) (j : S64x4096.Idx) :
    Host.reduceAdd (F := Ideal) (mulf x x) (constant (F := Ideal) S_ .f32 0x00000000#32)
        Facts.reducesTo_S64x4096x512_S64x4096_d2 Facts.h_S_ j
      = Ideal.ofBits .f32 0x00000000#32
          + ∑ k : Fin 512, x (ValueIdx.ix3 (j 0) (j 1) k) * x (ValueIdx.ix3 (j 0) (j 1) k) := by
  -- for any array `y`, the sum over the last axis at `j` is the initial value plus `∑ k, y (j 0, j 1, k)`
  have e : ∀ y : FVec Ideal S64x4096x512 .f32,
      Host.reduceAdd (F := Ideal) y (constant (F := Ideal) S_ .f32 0x00000000#32)
          Facts.reducesTo_S64x4096x512_S64x4096_d2 Facts.h_S_ j
        = Ideal.ofBits .f32 0x00000000#32 + ∑ k : Fin 512, y (ValueIdx.ix3 (j 0) (j 1) k) := by
    intro y
    simp only [Host.reduceAdd, Ideal.hostReduceAdd_def]
    rw [Ideal.hostReduceAdd_single Facts.reducesTo_S64x4096x512_S64x4096_d2 (by decide)]
    refine congrArg (_ + ·) (Finset.sum_congr rfl fun k _ => ?_)
    -- the index that puts `k` back on the summed axis of `j` is `(j 0, j 1, k)`
    exact congrArg y (funext fun a => Fin.ext (by match a with | ⟨0, _⟩ => rfl | ⟨1, _⟩ => rfl | ⟨2, _⟩ => rfl))
  -- take `y` the array of squares, whose entry at an index is the square of the entry of `x` there
  exact e (mulf x x)

/-- On the extended reals the comparison "greater than" answers true exactly for `b < a`. -/
theorem cmp_ogt_eq_one (a b : EReal) (hab : Ideal.cmp .ogt a b = 1#1) : b < a := by
  by_contra hn
  have e : Ideal.cmp .ogt a b = 0#1 := by
    show BitVec.ofBool (decide (b < a)) = 0#1
    rw [decide_eq_false hn]; rfl
  rw [e] at hab
  exact absurd hab (by decide)

/-- Under the hypothesis on the input, the feature vector through any index `i` has positive squared length. -/
theorem rows_pos [Facts] (x : FVec Ideal S64x4096x512 .f32)
    (h : fn (F := Ideal) x = fun _ => 1#1) (i : Cert.RowNorm.S3.Idx) : 0 < Cert.RowNorm.sumSq x i := by
  have h0 := congrFun h ValueIdx.ix0
  dsimp only [fn] at h0
  -- the conjunction is true, so its second conjunct is: the "and" over all (b, t) of `0 < 0 + ∑ k, x² (b, t, k)`
  obtain ⟨-, h8⟩ := IntOp.andi_eq_one.1 h0
  -- an "and" over all (b, t) that is true is true at (b, t) = (i 0, i 1)
  have hj := Host.reduce_andi_all _ _ _ _ _ h8 (ValueIdx.ix2 (i 0) (i 1))
  rw [ValueIdx.cmpf_apply, rowSum_apply] at hj
  -- the array it is compared against is the constant zero at every (b, t)
  have hb : broadcastInDim S64x4096 ![] Facts.bcast_S_S64x4096 (constant (F := Ideal) S_ .f32 0x00000000#32)
      (ValueIdx.ix2 (i 0) (i 1)) = Ideal.ofBits .f32 0x00000000#32 := rfl
  rw [hb] at hj
  have hlt := cmp_ogt_eq_one _ _ hj
  rw [Ideal.ofBits_zero_f32] at hlt
  -- the sum at (i 0, i 1) is the squared length of the feature vector through `i`
  unfold Cert.RowNorm.sumSq
  rw [Ideal.ofBits_zero_f32]
  exact hlt

end Cert.PreRows

end
-- ==== Proof.RefRows.lean ====
/-
  The reference, read one entry at a time, is the quotient "entry over the length of its feature vector".

  The reference squares the array `x` of shape [64, 4096, 512] entry by entry, sums the squares over the last axis
  starting from the constant zero (one number per batch `b` and frame `t`), takes the square root of each of these
  numbers, repeats it along the last axis, and divides `x` by the result entry by entry. At an index
  `i = (b, t, f)` the repeated array is read at `(b, t)`, whatever `f` is, so the divisor there is
  `√(0 + ∑ k, x (b, t, k) · x (b, t, k))`: the square root of the squared length of the feature vector through `i`.
  Hence the reference at `i` is `x i` divided by that square root.
-/
import proofs.«136942_g59219009077998_feedfinal_496_9_alg».proof.Proof.Gen.ReferenceIdeal.Read
import proofs.«136942_g59219009077998_feedfinal_496_9_alg».proof.Proof.RowNorm

noncomputable section

namespace Cert.RefRows

open Cert.ReferenceIdeal Cert.ReferenceIdeal.Gen Cert.ReferenceIdeal.Read Idealize.ShloMosaic Idealize.ShloMosaic.TcCoe Idealize.SL.Sem Idealize.ShloMosaic.StableHlo

/-- Reading the repeated array at `i = (b, t, f)` drops `f`, reading the per-frame array there keeps `(b, t)`, and
    the sum over the last axis at `(b, t)` reads the squares at `(b, t, k)`: entry `k` of the feature vector
    through `i`. -/
theorem row_idx (i : S64x4096x512.Idx) (k : Fin 512) :
    idx_main_call0_v1 (idx_main_call0_v2 (idx_main_v1 i)) k = Cert.RowNorm.inRow i k :=
  funext fun a => Fin.ext (by match a with | ⟨0, _⟩ => rfl | ⟨1, _⟩ => rfl | ⟨2, _⟩ => rfl)

/-- The reference's value is, at every index, the entry divided by the square root of the squared length of the
    feature vector through that index. -/
theorem ref_eq_quot (x : (⟨Cert.ReferenceIdeal.S64x4096x512, .f32⟩ : BufTy).Contents (Elt Ideal)) :
    Cert.ReferenceIdeal.Read.val_main_v2 (F := Ideal) x = Cert.RowNorm.quot x := by
  funext i
  -- from the outside in: the quotient, the repetition along the last axis, the square root, the per-frame array
  -- with its trailing axis of size one, the sum over the last axis, and the zero the sum starts from
  rw [val_main_v2_apply, val_main_v1_apply, val_main_v0_apply, val_main_call0_v2_apply,
    val_main_call0_v1_apply, val_main_call0_cst_apply]
  -- under the sum: the square of the entry, at entry `k` of the feature vector through `i`
  simp only [val_main_call0_v0_apply, row_idx]
  -- on the extended reals the division, the square root and the product are the ones the quotient is written with
  rw [Ideal.hostDivf_def, Ideal.hostUnary_sqrt_def]
  simp only [Ideal.mulf_def]
  unfold Cert.RowNorm.quot Cert.RowNorm.sumSq
  rfl

end Cert.RefRows

end
-- ==== Proof.lean ====
/-
  Scaling every feature vector to unit Euclidean length: the kernel against its reference, on the extended reals.

  The argument is an array `x` of shape [64, 4096, 512]: 64 · 4096 feature vectors of 512 entries. For an index
  `i = (b, t, f)` write `s = 0 + ∑ k, x (b, t, k) · x (b, t, k)` for the squared length of the vector through `i`.
  * The reference computes `x i / √s` (RefRows: its operations read one entry at a time).
  * The kernel re-lays `x` as a matrix with one feature vector per row, rewrites it in 64 blocks of 4096 whole
    rows, each row multiplied by the reciprocal square root of its own squared length, and re-lays the matrix back;
    so it computes `x i · s^(-1/2)` (BlockBody: one block; KernelArray: the blocks cover the matrix, and the two
    re-layings cancel).
  * For `0 < s` — a positive real or `+∞` — the two agree whatever `x i` is (RowNorm). At `s = 0`, the zero
    vector, the reference is `0 / 0`; the hypothesis on the input excludes exactly that: besides finiteness it says
    that every feature vector has positive squared length (PreRows). Finiteness itself is never used.

  The three programs run to completion with their argument unchanged: for the two programs with a kernel this is
  the generated run of the pipeline, for the reference the generated run of its host operations. The idealized
  kernel is the printed kernel read on the extended reals, with no operation rewritten, so nothing is owed for that.
-/
import proofs.«136942_g59219009077998_feedfinal_496_9_alg».proof.Defs
import proofs.«136942_g59219009077998_feedfinal_496_9_alg».proof.Proof.Gen.Kernel
import proofs.«136942_g59219009077998_feedfinal_496_9_alg».proof.Proof.Gen.Kernel.Skeleton
import proofs.«136942_g59219009077998_feedfinal_496_9_alg».proof.Proof.Gen.Kernel.Launch
import proofs.«136942_g59219009077998_feedfinal_496_9_alg».proof.Proof.Gen.Kernel.Points
import proofs.«136942_g59219009077998_feedfinal_496_9_alg».proof.Proof.Gen.Kernel.Frame
import proofs.«136942_g59219009077998_feedfinal_496_9_alg».proof.Proof.Gen.KernelIdeal
import proofs.«136942_g59219009077998_feedfinal_496_9_alg».proof.Proof.Gen.KernelIdeal.Skeleton
import proofs.«136942_g59219009077998_feedfinal_496_9_alg».proof.Proof.Gen.KernelIdeal.Launch
import proofs.«136942_g59219009077998_feedfinal_496_9_alg».proof.Proof.Gen.KernelIdeal.Points
import proofs.«136942_g59219009077998_feedfinal_496_9_alg».proof.Proof.Gen.KernelIdeal.Frame
import proofs.«136942_g59219009077998_feedfinal_496_9_alg».proof.Proof.Gen.ReferenceIdeal
import proofs.«136942_g59219009077998_feedfinal_496_9_alg».proof.Proof.Gen.Pre_finite_inputs
import proofs.«136942_g59219009077998_feedfinal_496_9_alg».proof.Proof.Gen.ReferenceIdeal.Run
import proofs.«136942_g59219009077998_feedfinal_496_9_alg».proof.Proof.Gen.ReferenceIdeal.Read
import proofs.«136942_g59219009077998_feedfinal_496_9_alg».proof.Proof.KernelArray
import proofs.«136942_g59219009077998_feedfinal_496_9_alg».proof.Proof.PreRows
import proofs.«136942_g59219009077998_feedfinal_496_9_alg».proof.Proof.RefRows
import Idealize.ShloMosaic.Adequacy
import Idealize.ShloMosaic.Init

noncomputable section

namespace Cert.Proof

open Idealize.ShloMosaic Idealize.ShloMosaic.TcCoe Idealize.SL.Sem

/-- The printed kernel runs to completion and leaves its argument as it was. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at `x i / √s`, index by index: the reference by reading it, the
    kernel because under the hypothesis every `s` is positive, where `x i · s^(-1/2)` is that quotient. -/
theorem algebraic : Cert.algebraic_KernelIdeal_ReferenceIdeal := by
  intro m ρ m' ρ' hpre hagree
  refine ⟨fun c => Cert.RowNorm.quot (m ((c.tc : Thread Cert.KernelIdeal.nD Cert.KernelIdeal.τ).loc Cert.KernelIdeal.main_arg0)), ?_, ?_⟩
  · refine (θ_run Cert.KernelIdeal.defs _ _).mono (fun r h c => ⟨(h c).1.trans ?_, (h c).2⟩)
      (Cert.KernelIdeal.Rows.run m ρ)
    funext i
    exact Cert.RowNorm.scaled_eq_quot _ i (Cert.PreRows.rows_pos _ (hpre c) i)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v2_eq, Cert.RefRows.ref_eq_quot, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
